-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S1x1 : Shape := ⟨2, ![1, 1]⟩
abbrev S128x8192 : Shape := ⟨2, ![128, 8192]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x1, .f32⟩
  | .hbm, ⟨3, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x1, .f32⟩
  | .local _ .vmem, ⟨5, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v26 : BitVec 1 := Scalar.cmpi .eq arg0 c31_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .i1⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S4096_d1 : S4096x8192.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Pieces.lean ====
/-
  What one run of the kernel body leaves behind, as values. The body keeps a 1 × 1 running sum in a scratch buffer
  across the 32 grid points. At the first point it stores zero there, reads that zero back and stores zero plus the
  block's sum of masked ratios; at every later point it stores the sum it finds plus the block's sum; at the last point
  it moreover stores the running sum times the final scale into the 1 × 1 output. Each store covers its whole buffer, so
  what a buffer holds afterwards is the last stored value, a function of the two input blocks and of the running sum
  found: the three stored values are the body's payloads `k0_pay1` (zero), `k0_pay2` (sum found plus block sum) and
  `k0_pay3` (running sum times scale). Stated for any float instance.
-/
import proofs.«167430_j34471407517908_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body is at offset (0, 0). -/
theorem hz : (![0, 0] : Fin 2 → Nat) = fun _ => 0 := funext fun a => by fin_cases a <;> rfl

/-- A point that is neither first nor last: the scratch, found at `xs0`, is left at `xs0` plus the block sum of the
    input blocks `x0`, `x1` — the one covering store's value, its three loads reading whole buffers. -/
theorem scr_B (c : Dev nD) (i : grid0.Coords) (a1 : Memref sig .tc .vmem S128x8192 .f32) (h1 : a1.IsWhole) (a2 : Memref sig .tc .vmem S128x8192 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 x1 : Vec F S128x8192 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S128x8192) hz, View.ld_unit_zero (S := S1x1) hz]

/-- The first point: the scratch is reset to zero and then left at zero plus the block sum; the value read back between
    the two stores is the zero just stored. -/
theorem scr_A (c : Dev nD) (i : grid0.Coords) (a1 : Memref sig .tc .vmem S128x8192 .f32) (h1 : a1.IsWhole) (a2 : Memref sig .tc .vmem S128x8192 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 x1 : Vec F S128x8192 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x8192) hz, View.ld_unit_zero (S := S1x1) hz]

/-- The last point leaves the scratch as every later point does: the sum found plus the block sum. -/
theorem scr_C (c : Dev nD) (i : grid0.Coords) (a1 : Memref sig .tc .vmem S128x8192 .f32) (h1 : a1.IsWhole) (a2 : Memref sig .tc .vmem S128x8192 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S128x8192 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S128x8192) hz, View.ld_unit_zero (S := S1x1) hz]

/-- The last point leaves in the output the scaled running sum: the scale applied to the scratch as just updated (the
    value read back before the scaling is the sum stored a moment earlier). -/
theorem out_C (c : Dev nD) (i : grid0.Coords) (a1 : Memref sig .tc .vmem S128x8192 .f32) (h1 : a1.IsWhole) (a2 : Memref sig .tc .vmem S128x8192 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S128x8192 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S128x8192) hz, View.ld_unit_zero (S := S1x1) hz]

end Cert.KernelIdeal.Pieces

end
-- ==== Proof.Accum.lean ====
/-
  The running sum the kernel keeps across its 32 grid points, in closed form. Point `n` adds the sum of block `n` of
  the two input arrays to what the point before left in the 1 × 1 scratch; the first point starts from zero. So the
  scratch after point `n` is the fold, in point order, of "sum found plus block sum" over the points up to `n`: by
  induction on the point, never by listing the grid. The output's staging buffer after the last point holds that sum
  after the last point, scaled. Stated for any float instance, over the body's stored values as pure functions.
-/
import proofs.«167430_j34471407517908_1_alg».proof.Proof.Pieces

noncomputable section

open Idealize.ShloMosaic Idealize.ShloMosaic.TcCoe Idealize.SL.Sem

namespace Cert.KernelIdeal.Accum

open Cert.KernelIdeal Cert.KernelIdeal.Gen Cert.KernelIdeal.Pieces

section AnyInstance

variable {F : FTy → Type} [FloatOps F]
variable (m : (ℓ : Loc nD τ sig) → Buf (Elt F) ℓ)

/-- The running sum after point `n`: zero plus the first block's sum, then plus each later block's sum, in point order. -/
def acc (c : Dev nD) : (n : ℕ) → n < cfg0.N → Vec F S1x1 .f32
  | 0, h => k0_pay2 (iblk m c 0 ⟨0, h⟩) (iblk m c 1 ⟨0, h⟩) k0_pay1
  | n + 1, h => k0_pay2 (iblk m c 0 ⟨n + 1, h⟩) (iblk m c 1 ⟨n + 1, h⟩) (acc c n (Nat.lt_of_succ_lt h))

/-- What the scratch holds after point `n` is that running sum: by induction on the point, the first point resetting,
    every later one adding to what the point before left. -/
theorem scratch_eq (c : Dev nD) : ∀ (n : ℕ) (h : n < cfg0.N), (outsAt0 m c n h).2 = acc m c n h
  | 0, h => by
    rw [outsAt0_A m c ⟨0, h⟩ rfl (show ¬(0 : ℕ) % 32 = 31 by decide)]
    dsimp only
    rw [acc]
    exact scr_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (scr_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) _ _ (iblk m c 0 ⟨n + 1, h⟩) (iblk m c 1 ⟨n + 1, h⟩) _).trans ?_
      show k0_pay2 _ _ (outsAt0 m c n _).2 = k0_pay2 _ _ (acc m c n _)
      rw [scratch_eq c n]
    · rw [outsAt0_B m c ⟨n + 1, h⟩ h0 h1]
      dsimp only
      refine (scr_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) _ _ (iblk m c 0 ⟨n + 1, h⟩) (iblk m c 1 ⟨n + 1, h⟩) _).trans ?_
      show k0_pay2 _ _ (outsAt0 m c n _).2 = k0_pay2 _ _ (acc m c n _)
      rw [scratch_eq c n]

/-- The last point is point 31. -/
theorem lt_last : 31 < cfg0.N := by rw [show cfg0.N = 32 from N_0]; decide

/-- What the output's staging buffer holds after the last point: the running sum after it, scaled. -/
theorem out_last (c : Dev nD) : (outsAt0 m c 31 lt_last).1 = k0_pay3 (acc m c 31 lt_last) := by
  have h0 : ¬(⟨31, lt_last⟩ : Fin cfg0.N).val % 32 = 0 := by decide
  have h1 : (⟨31, lt_last⟩ : Fin cfg0.N).val % 32 = 31 := by decide
  rw [outsAt0_C m c ⟨31, lt_last⟩ h0 h1]
  dsimp only
  refine (out_C c (grid0.coords ⟨31, lt_last⟩) (ms0_0 ⟨31, lt_last⟩) (hs0_0 ⟨31, lt_last⟩) (ms0_1 ⟨31, lt_last⟩) (hs0_1 ⟨31, lt_last⟩) (ms0_2 ⟨31, lt_last⟩) (hs0_2 ⟨31, lt_last⟩)
    scM0_0 (Memref.isWhole_whole _) _ _ (iblk m c 0 ⟨31, lt_last⟩) (iblk m c 1 ⟨31, lt_last⟩) _).trans ?_
  show k0_pay3 (k0_pay2 _ _ (outsAt0 m c 30 _).2) = k0_pay3 (k0_pay2 _ _ (acc m c 30 _))
  rw [scratch_eq m c 30]

end AnyInstance

end Cert.KernelIdeal.Accum

end
-- ==== Proof.Spec.lean ====
/-
  The masked symmetric percentage ratio of a prediction and a target, and the scaled sum of a family of
  row sums over 4096 rows written in two groupings: row by row, each row's sum scaled by 200/8192 and the
  total divided by the number of rows; and in 32 blocks of 128 rows, the total scaled once by 200/(8192·4096).
  No program is mentioned here: the two programs' results are identified with these terms elsewhere.
-/
import Idealize.ShloMosaic.PureOps.Ideal
import Idealize.ShloMosaic.Lib.ValueIdx

noncomputable section

namespace Smape

open Idealize.ShloMosaic Idealize.ShloMosaic.ValueIdx

/-- The threshold test `|p| + |t| ≥ 0.001` (the f32 nearest to one thousandth), as a one-bit word. -/
def big (p t : Ideal .f32) : BitVec 1 :=
  FloatOps.cmpf .oge (FloatOps.addf (FloatOps.absf p) (FloatOps.absf t)) (FloatOps.ofBits .f32 0x3A83126F#32)

/-- `|t - p| / (|p| + |t|)` where the denominator reaches the threshold and `0` elsewhere; where it does not, the
    denominator is replaced by `1` before the quotient is taken, so no quotient by a small number occurs. -/
def ratio (p t : Ideal .f32) : Ideal .f32 :=
  Scalar.select (big p t)
    (FloatOps.divf (FloatOps.absf (FloatOps.subf t p))
      (Scalar.select (big p t) (FloatOps.addf (FloatOps.absf p) (FloatOps.absf t)) (FloatOps.ofBits .f32 0x3F800000#32)))
    (FloatOps.ofBits .f32 0x00000000#32)

/-- The sum of the ratios along row `i` of two 4096 × 8192 arrays. -/
def rowSum (x y : (⟨2, ![4096, 8192]⟩ : Shape).Idx → Ideal .f32) (i : Fin 4096) : EReal :=
  ∑ q : Fin 8192, ratio (x (ix2 i q)) (y (ix2 i q))

/-- Row `p` of block `t`: row `128 t + p` of the array. -/
def rowOf (t : Fin 32) (p : Fin 128) : Fin 4096 := ⟨128 * t.val + p.val, by omega⟩

/-- Block by block: the 32 blocks' sums of their 128 row sums, added up and scaled once by `25 · 2⁻²²`. -/
def blocked (S : Fin 4096 → EReal) : EReal :=
  (∑ t : Fin 32, ∑ p : Fin 128, S (rowOf t p)) * Ideal.ofBits .f32 0x36C80000#32

/-- Row by row: each row sum (from zero) scaled by `25/1024`, the scaled sums added up from zero, the total divided
    by `4096`. -/
def rowwise (S : Fin 4096 → EReal) : EReal :=
  Ideal.div (Ideal.ofBits .f32 0x00000000#32
      + ∑ i : Fin 4096, (Ideal.ofBits .f32 0x00000000#32 + S i) * Ideal.ofBits .f32 0x3CC80000#32)
    (Ideal.ofBits .f32 0x45800000#32)

end Smape

end
-- ==== Proof.Payload.lean ====
/-
  The kernel body's three stored values read at an index, over the extended reals: the zero the accumulator is reset
  to; the accumulator plus the block's sum of masked ratios (a sum along the lanes of each of the 128 rows, then a sum
  over the rows); the accumulator times the final scale.
-/
import proofs.«167430_j34471407517908_1_alg».proof.Proof.Spec
import proofs.«167430_j34471407517908_1_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-- The shape [1, 1] has one index. -/
theorem idx11 (j : S1x1.Idx) : j = ix2 (0 : Fin 1) (0 : Fin 1) := by
  funext a
  match a with
  | ⟨0, _⟩ => exact Fin.ext (Nat.lt_one_iff.mp (j 0).isLt)
  | ⟨1, _⟩ => exact Fin.ext (Nat.lt_one_iff.mp (j 1).isLt)

/-- The sum along the lanes of a [128, 8192] block, read at row `p`. -/
theorem laneSum_apply (v : FVec Ideal S128x8192 .f32) (h : S128x8192.Reduces [1] S128) (hφ : FKind.Formats .f32)
    (hacc : (0x00000000#32 : BitVec 32) = FKind.add.neutral .f32 hφ) (p : Fin 128) :
    multiReduction (F := Ideal) .add [1] S128 v 0x00000000#32 h hφ hacc (ix1 p) = ∑ q : Fin 8192, v (ix2 p q) :=
  (Ideal.multiReduction_add_single v _ h hφ hacc (ix1 p)).trans
    (Finset.sum_congr rfl fun k _ => congrArg v (funext fun a => Fin.ext (by
      match a with | ⟨0, _⟩ => rfl | ⟨1, _⟩ => rfl)))

/-- The sum over the rows of a [128, 1] column, read at its one index. -/
theorem rowSum_apply (v : FVec Ideal S128x1 .f32) (h : S128x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ p : Fin 128, v (ix2 p (0 : Fin 1)) :=
  (Ideal.multiReduction_add_single v _ h hφ hacc (ix1 (0 : Fin 1))).trans
    (Finset.sum_congr rfl fun k _ => congrArg v (funext fun a => Fin.ext (by
      match a with | ⟨0, _⟩ => rfl | ⟨1, _⟩ => rfl)))

/-- A vector of length `a` viewed as a column [a, 1] reads, at `(i, u)`, the vector at `i`: the two row-major positions are
    `i` and `i · 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The value the accumulator is reset to: the zero word spread over [1, 1], which is the extended real `0`. -/
theorem pay1_apply (j : S1x1.Idx) : k0_pay1 (F := Ideal) j = 0 := by
  unfold k0_pay1
  exact (congrFun (shapeCast_self _ _) j).trans Ideal.ofBits_zero_f32

/-- The accumulated value: the accumulator plus the block's total. Read from the outside in: the sum with the
    accumulator; the one-element vector viewed as [1, 1]; the sum over the 128 rows of the column; the column [128, 1]
    of the vector of lane sums; the sum along the 8192 lanes of row `p`; and at `(p, q)` the selected quotient, which
    is the masked ratio of the two elements by definition. -/
theorem pay2_apply (x0 x1 : Vec Ideal S128x8192 .f32) (a : Vec Ideal S1x1 .f32) (j : S1x1.Idx) :
    k0_pay2 (F := Ideal) x0 x1 a j
      = a j + ∑ p : Fin 128, ∑ q : Fin 8192, Smape.ratio (x0 (ix2 p q)) (x1 (ix2 p q)) := by
  obtain rfl := idx11 j
  unfold k0_pay2
  rw [shapeCast_self, addf_apply]
  congr 1
  refine (shapeCast_a_1a_apply _ _ (0 : Fin 1) (0 : Fin 1)).trans ?_
  refine (rowSum_apply _ _ _ _).trans ?_
  refine Finset.sum_congr rfl fun p _ => ?_
  refine (shapeCast_a_a1_apply _ _ p (0 : Fin 1)).trans ?_
  refine (laneSum_apply _ _ _ _ p).trans ?_
  refine Finset.sum_congr rfl fun q _ => ?_
  rfl

/-- The final value: the accumulator times the scale constant spread over [1, 1]. -/
theorem pay3_apply (v : Vec Ideal S1x1 .f32) (j : S1x1.Idx) :
    k0_pay3 (F := Ideal) v j = v j * Ideal.ofBits .f32 0x36C80000#32 := by
  unfold k0_pay3
  rfl

end Cert.KernelIdeal.Payload

end
-- ==== Proof.KernelValue.lean ====
/-
  The kernel's result over the extended reals, as a function of its two argument arrays. Block `t` of either input is
  rows `128 t … 128 t + 127` of the array (the index maps send point `t` to block row `t`, lane block `0`), so the total
  the body computes at point `t` is the sum over those rows of the row sums of the masked ratio. The running sum after
  point `n` is therefore the sum of the block sums of the points up to `n` — here the zeros the sums start from are
  neutral and nothing else is used: no distributivity, no finiteness. After the last point the output holds that sum over
  all 32 blocks times the scale; the output's one block is the whole 1 × 1 array and is written back once, after the
  last point; and the host's reshape to a scalar after the region reads that one element.
-/
import proofs.«167430_j34471407517908_1_alg».proof.Proof.Accum
import proofs.«167430_j34471407517908_1_alg».proof.Proof.Payload
import proofs.«167430_j34471407517908_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Accum Cert.KernelIdeal.Payload

variable (m : (ℓ : Loc nD τ sig) → Buf (Elt Ideal) ℓ) (ρ : Dev nD → PrngReg)

/-- Block `t` of the predictions starts at row `128 t`, lane `0`: decided once over the grid. -/
theorem idx_in0 : ∀ t : Fin cfg0.N, win0_0.index t 0 = t.val ∧ win0_0.index t 1 = 0 :=
  (by decide +kernel : ∀ t : Fin grid0.N, win0_0.index t 0 = t.val ∧ win0_0.index t 1 = 0)
/-- And so does block `t` of the targets. -/
theorem idx_in1 : ∀ t : Fin cfg0.N, win0_1.index t 0 = t.val ∧ win0_1.index t 1 = 0 :=
  (by decide +kernel : ∀ t : Fin grid0.N, win0_1.index t 0 = t.val ∧ win0_1.index t 1 = 0)

/-- A grid point as a block number below 32. -/
abbrev pt (t : Fin cfg0.N) : Fin 32 := ⟨t.val, lt_of_lt_of_eq t.isLt N_0⟩

/-- The predictions' block at point `t`, read at `(p, q)`, is the array at row `128 t + p`, lane `q`. -/
theorem iblk0_apply (c : Dev nD) (t : Fin cfg0.N) (p : Fin 128) (q : Fin 8192) :
    (iblk m c 0 t : Vec Ideal S128x8192 .f32) (ix2 p q)
      = m ((c : Thread nD τ).loc main_arg0) (ix2 (Smape.rowOf (pt t) p) q) := by
  have hi := idx_in0 t
  unfold iblk
  rw [View.read_apply]
  show V m c main_arg0 _ = m ((c : Thread nD τ).loc main_arg0) _
  refine congrArg (m ((c : Thread nD τ).loc main_arg0)) ?_
  funext a
  apply Fin.ext
  match a with
  | ⟨0, _⟩ => show win0_0.index t 0 * 128 + 1 * p.val = 128 * t.val + p.val; rw [hi.1]; omega
  | ⟨1, _⟩ => show win0_0.index t 1 * 8192 + 1 * q.val = q.val; rw [hi.2]; omega

/-- The targets' block likewise. -/
theorem iblk1_apply (c : Dev nD) (t : Fin cfg0.N) (p : Fin 128) (q : Fin 8192) :
    (iblk m c 1 t : Vec Ideal S128x8192 .f32) (ix2 p q)
      = m ((c : Thread nD τ).loc main_arg1) (ix2 (Smape.rowOf (pt t) p) q) := by
  have hi := idx_in1 t
  unfold iblk
  rw [View.read_apply]
  show V m c main_arg1 _ = m ((c : Thread nD τ).loc main_arg1) _
  refine congrArg (m ((c : Thread nD τ).loc main_arg1)) ?_
  funext a
  apply Fin.ext
  match a with
  | ⟨0, _⟩ => show win0_1.index t 0 * 128 + 1 * p.val = 128 * t.val + p.val; rw [hi.1]; omega
  | ⟨1, _⟩ => show win0_1.index t 1 * 8192 + 1 * q.val = q.val; rw [hi.2]; omega

/-- Block `k`'s sum of its 128 row sums (zero for a number that is no block). -/
def blockSum (x y : S4096x8192.Idx → Ideal .f32) (k : ℕ) : EReal :=
  if h : k < 32 then ∑ p : Fin 128, Smape.rowSum x y (Smape.rowOf ⟨k, h⟩ p) else 0

/-- The block's total as the body computes it at point `t` is that block sum. -/
theorem block_total (c : Dev nD) (t : Fin cfg0.N) :
    (∑ p : Fin 128, ∑ q : Fin 8192, Smape.ratio ((iblk m c 0 t : Vec Ideal S128x8192 .f32) (ix2 p q))
        ((iblk m c 1 t : Vec Ideal S128x8192 .f32) (ix2 p q)))
      = blockSum (m ((c : Thread nD τ).loc main_arg0)) (m ((c : Thread nD τ).loc main_arg1)) t.val := by
  have ht : t.val < 32 := lt_of_lt_of_eq t.isLt N_0
  rw [blockSum, dif_pos ht]
  refine Finset.sum_congr rfl fun p _ => ?_
  unfold Smape.rowSum
  refine Finset.sum_congr rfl fun q _ => ?_
  rw [iblk0_apply, iblk1_apply]

/-- The running sum after point `n`, at its one index, is the sum of the block sums of the points up to `n`. -/
theorem acc_apply (c : Dev nD) : ∀ (n : ℕ) (h : n < cfg0.N) (j : S1x1.Idx),
    acc m c n h j = ∑ k ∈ Finset.range (n + 1),
      blockSum (m ((c : Thread nD τ).loc main_arg0)) (m ((c : Thread nD τ).loc main_arg1)) k
  | 0, h, j => by
    rw [acc]
    refine (pay2_apply (iblk m c 0 ⟨0, h⟩) (iblk m c 1 ⟨0, h⟩) (k0_pay1 (F := Ideal)) j).trans ?_
    rw [pay1_apply, zero_add, Finset.sum_range_one]
    exact block_total m c ⟨0, h⟩
  | n + 1, h, j => by
    rw [acc]
    refine (pay2_apply (iblk m c 0 ⟨n + 1, h⟩) (iblk m c 1 ⟨n + 1, h⟩) (acc m c n (Nat.lt_of_succ_lt h)) j).trans ?_
    rw [acc_apply c n (Nat.lt_of_succ_lt h) j, Finset.sum_range_succ _ (n + 1)]
    exact congrArg (_ + ·) (block_total m c ⟨n + 1, h⟩)

/-- What the result array holds in the end: the running sum after the last point, scaled. -/
abbrev result (c : Dev nD) : Buf (Elt Ideal) ((c : Thread nD τ).loc main_v0) := k0_pay3 (acc m c 31 lt_last)

/-- At its one index that is the block-by-block grouping of the row sums of the two argument arrays. -/
theorem result_apply (c : Dev nD) (j : S1x1.Idx) :
    result m c j = Smape.blocked (Smape.rowSum (m ((c : Thread nD τ).loc main_arg0)) (m ((c : Thread nD τ).loc main_arg1))) := by
  refine (pay3_apply (acc m c 31 lt_last) j).trans ?_
  rw [acc_apply m c 31 lt_last j]
  unfold Smape.blocked
  refine congrArg (· * _) ?_
  rw [← Fin.sum_univ_eq_sum_range (fun k => blockSum (m ((c : Thread nD τ).loc main_arg0)) (m ((c : Thread nD τ).loc main_arg1)) k) 32]
  refine Finset.sum_congr rfl fun t _ => ?_
  rw [blockSum, dif_pos t.isLt]

/-- The one write-back of the output, after the last point, writes the result: the output's one block is the whole
    1 × 1 array, read through zero offsets. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = ⟨31, lt_last⟩ := Fin.ext h31
  show (cfg0.win 2).cut (grid0.coords ⟨31, lt_last⟩) ((dats m 0 c).after 2 ⟨31, lt_last⟩) = _
  rw [after0_2]
  show (cfg0.win 2).cut (grid0.coords ⟨31, lt_last⟩) (outsAt0 m c 31 lt_last).1 = _
  rw [out_last]
  have hz' : (fun a => win0_2.index ⟨31, lt_last⟩ a * main_v0.ty.shape.size a) = fun _ => 0 :=
    funext fun a => by fin_cases a <;> decide +kernel
  exact (Memref.read_access_unit_zero (Elt Ideal) main_v0 hz' (fun a => by rw [congrFun hz' a]; simp) (result m c)).symm

/-- So the output array ends holding the result: the last point's block covers it. -/
theorem final_o (c : Dev nD) : (dats m 0 c).arrAt 2 cfg0.N = result m c :=
  (dats m 0 c).arrAt_eq_of_cover 2 (result m c) (flushed_eq m c) fun i =>
    ⟨⟨31, lt_last⟩, (flush0_2 _).mpr rfl, by
      show i ∈ ((View.whole main_v0).slice (win0_2.rect ⟨31, lt_last⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨31, lt_last⟩ 0 * win0_2.size 0 ≤ (i 0 : Nat)
          ∧ (i 0 : Nat) < win0_2.index ⟨31, lt_last⟩ 0 * win0_2.size 0 + win0_2.xsize (grid0.coords ⟨31, lt_last⟩) 0
        rw [show win0_2.index ⟨31, lt_last⟩ 0 * win0_2.size 0 = 0 from by decide +kernel,
          show win0_2.xsize (grid0.coords ⟨31, lt_last⟩) 0 = 1 from by decide +kernel]
        omega
      | ⟨1, _⟩ =>
        show win0_2.index ⟨31, lt_last⟩ 1 * win0_2.size 1 ≤ (i 1 : Nat)
          ∧ (i 1 : Nat) < win0_2.index ⟨31, lt_last⟩ 1 * win0_2.size 1 + win0_2.xsize (grid0.coords ⟨31, lt_last⟩) 1
        rw [show win0_2.index ⟨31, lt_last⟩ 1 * win0_2.size 1 = 0 from by decide +kernel,
          show win0_2.xsize (grid0.coords ⟨31, lt_last⟩) 1 = 1 from by decide +kernel]
        omega⟩

/-- The program's result: the host reshapes the 1 × 1 output array to a scalar after the region. -/
theorem tail_eq (c : Dev nD) :
    Pipeline.afterTail₀ cfgs (dats m) 0 (V0 m) [hostOps1] c main_v1
      = fun _ => Smape.blocked (Smape.rowSum (m ((c : Thread nD τ).loc main_arg0)) (m ((c : Thread nD τ).loc main_arg1))) := by
  unfold Pipeline.afterTail₀
  show StableHlo.after hostOps1 _ (Proc.devRef .tc main_v1) = _
  after_results
  funext i
  show shapeCast main_v1.ty.shape (Pipeline.withArrays (cfgs 0).spec c (V0 m c) (fun w => (dats m 0 c).arrAt w (cfgs 0).N)
    (Proc.devRef .tc main_v0)) shapeCasts_S1x1_S_ i = _
  have e : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_o m c)
  rw [e]
  unfold shapeCast
  exact result_apply m c _

/-- The run, read: every weakly fair execution ends with the result at the block-by-block grouping of the row sums of
    the two argument arrays, and the arguments unchanged. -/
theorem run : θ_run defs (onTc (τ := τ) (main (F := Ideal))) ⟨m, fun _ => 0, ρ⟩ fun r => ∀ c : Dev nD,
      r.2.mem ((c.tc : Thread nD τ).loc main_v1)
        = (fun _ => Smape.blocked (Smape.rowSum (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefRead.lean ====
/-
  The reference's result, read one operation at a time, is the row-by-row grouping of the row sums of the masked ratio
  of its two argument arrays.
-/
import proofs.«167430_j34471407517908_1_alg».proof.Proof.Spec
import proofs.«167430_j34471407517908_1_alg».proof.Proof.Gen.ReferenceIdeal.Run
import proofs.«167430_j34471407517908_1_alg».proof.Proof.Gen.ReferenceIdeal.Read

noncomputable section

namespace Cert.ReferenceIdeal.RefValue

open Idealize.ShloMosaic Idealize.ShloMosaic.ValueIdx Cert.ReferenceIdeal Cert.ReferenceIdeal.Gen

/-- Summing along row `r`: the element read at column `k` is the one at the pair `(r, k)`. -/
theorem idx_row (r : Fin 4096) (k : Fin 8192) : Read.idx_main_v10 (ix1 r) k = ix2 r k :=
  funext fun a => Fin.ext (by match a with | ⟨0, _⟩ => rfl | ⟨1, _⟩ => rfl)

/-- Each element of the array whose rows are summed is the masked ratio of the two arguments' elements at the same
    place: the threshold test on `|p| + |t|`, the quotient `|t - p| / (|p| + |t|)` with the denominator replaced by
    one where the test fails, and zero where the test fails. -/
theorem elem_eq (x0 x1 : FVec Ideal S4096x8192 .f32) (j : S4096x8192.Idx) :
    Read.val_main_v9 (F := Ideal) x0 x1 j = Smape.ratio (x0 j) (x1 j) := by
  rw [Read.val_main_v9_apply, Read.val_main_v8_apply, Read.val_main_v7_apply, Read.val_main_v6_apply,
    Read.val_main_v5_apply, Read.val_main_v4_apply, Read.val_main_v3_apply, Read.val_main_v2_apply,
    Read.val_main_v1_apply, Read.val_main_v0_apply, Read.val_main_cst_apply,
    Read.val_main_call0_v1_apply, Read.val_main_call0_v0_apply, Read.val_main_cst_0_apply,
    Read.val_main_call1_v1_apply, Read.val_main_call1_v0_apply, Read.val_main_cst_1_apply]
  rfl

/-- The indices of a vector of length 4096 are the numbers below 4096. -/
def rowEquiv : Fin 4096 ≃ S4096.Idx where
  toFun r := ix1 r
  invFun j := j 0
  left_inv _ := rfl
  right_inv j := (eq_ix1 j).symm

/-- The sum over the vector's indices of the scaled row sums is the sum over the rows `r < 4096` of
    `(0 + rowSum r) · 25/1024`. -/
theorem scaled_sum (x0 x1 : FVec Ideal S4096x8192 .f32) :
    ∑ j : S4096.Idx, Read.val_main_v12 (F := Ideal) x0 x1 j
      = ∑ r : Fin 4096, (Ideal.ofBits .f32 0x00000000#32 + Smape.rowSum x0 x1 r) * Ideal.ofBits .f32 0x3CC80000#32 := by
  refine (Fintype.sum_equiv rowEquiv _ _ fun r => ?_).symm
  show _ = Read.val_main_v12 (F := Ideal) x0 x1 (ix1 r)
  rw [Read.val_main_v12_apply, Read.val_main_v10_apply, Read.val_main_v11_apply, Read.val_main_cst_3_apply,
    Read.val_main_cst_2_apply]
  have hrow : ∑ k : Fin 8192, Read.val_main_v9 (F := Ideal) x0 x1 (Read.idx_main_v10 (ix1 r) k)
      = Smape.rowSum x0 x1 r :=
    Finset.sum_congr rfl fun k _ => by rw [idx_row, elem_eq]
  rw [hrow]
  rfl

theorem result_eq (x0 x1 : FVec Ideal S4096x8192 .f32) :
    Cert.ReferenceIdeal.Read.val_main_v14 (F := Ideal) x0 x1 = fun _ => Smape.rowwise (Smape.rowSum x0 x1) := by
  funext i
  rw [Read.val_main_v14_apply, Read.val_main_v13_apply, Read.val_main_cst_5_apply, Read.val_main_cst_4_apply,
    scaled_sum]
  rfl

end Cert.ReferenceIdeal.RefValue

end
-- ==== Proof.Algebra.lean ====
/-
  The two groupings of the scaled sum agree on the extended reals, for ANY family of row sums: multiplying by a
  nonnegative finite constant distributes over every sum of extended reals, the zeros the sums start from are neutral,
  dividing by 4096 is multiplying by 1/4096, and (25/1024) · (1/4096) = 25 · 2⁻²².
-/
import proofs.«167430_j34471407517908_1_alg».proof.Proof.Spec
import Idealize.ShloMosaic.PureOps.Ideal.Laws

noncomputable section

namespace Smape

open Idealize.ShloMosaic

/-! ## The three scaling constants as exact dyadic reals -/

/-- The pattern `0x3CC80000` (sign 0, exponent 121, fraction `0x480000`) denotes `(1 + 9/16) · 2⁻⁶ = 25/1024`. -/
theorem ofBits_rowScale : Ideal.ofBits .f32 0x3CC80000#32 = ((25 / 1024 : ℝ) : EReal) := by
  simp [Ideal.ofBits, Ideal.ieee, -EReal.coe_mul]; norm_num

/-- The pattern `0x45800000` (exponent 139, fraction 0) denotes `2¹² = 4096`. -/
theorem ofBits_rowCount : Ideal.ofBits .f32 0x45800000#32 = ((4096 : ℝ) : EReal) := by
  simp [Ideal.ofBits, Ideal.ieee, -EReal.coe_mul]; norm_num

/-- The pattern `0x36C80000` (exponent 109, fraction `0x480000`) denotes `(1 + 9/16) · 2⁻¹⁸ = 25 · 2⁻²²`. -/
theorem ofBits_totalScale : Ideal.ofBits .f32 0x36C80000#32 = ((25 / 4194304 : ℝ) : EReal) := by
  simp [Ideal.ofBits, Ideal.ieee, -EReal.coe_mul]; norm_num

/-! ## A nonnegative finite factor distributes over every finite sum of extended reals -/

/-- On the extended reals `(y + z) * c = y * c + z * c` holds for every `y`, `z` once `0 ≤ c < ⊤` (the only failures of
    distributivity come from a factor that is negative or infinite); by induction it holds for every finite sum,
    whatever infinities the terms contain. -/
theorem sum_mul_const {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-! ## The 4096 rows as 32 blocks of 128 -/

/-- Every row index is `128 t + p` for exactly one block `t < 32` and one offset `p < 128`, so a sum over the 4096 rows
    is the sum over the blocks of the sums over the offsets. -/
theorem sum_rows_eq_sum_blocks (g : Fin 4096 → EReal) :
    ∑ i : Fin 4096, g i = ∑ t : Fin 32, ∑ p : Fin 128, g (rowOf t p) := by
  rw [← Fintype.sum_prod_type (f := fun x : Fin 32 × Fin 128 => g (rowOf x.1 x.2))]
  refine (Fintype.sum_equiv (finProdFinEquiv : Fin 32 × Fin 128 ≃ Fin (32 * 128)) _ _ ?_).symm
  rintro ⟨t, p⟩
  congr 1
  apply Fin.ext
  simp only [rowOf, finProdFinEquiv, Equiv.coe_fn_mk]
  omega

/-! ## The two groupings -/

/-- Row by row, the zeros drop out and the division by `4096` is the product with `1/4096`, so the value is
    `(∑ i, S i · (25/1024)) · (1/4096)`. The factor `25/1024` is nonnegative and finite, so it comes out of the sum;
    `(25/1024) · (1/4096) = 25 · 2⁻²²`; and the sum over the rows is the sum over the 32 blocks of 128 rows. -/
theorem rowwise_eq_blocked (S : Fin 4096 → EReal) : rowwise S = blocked S := by
  have h0 : (0 : EReal) ≤ ((25 / 1024 : ℝ) : EReal) := EReal.coe_nonneg.mpr (by norm_num)
  have ht : ((25 / 1024 : ℝ) : EReal) ≠ ⊤ := EReal.coe_ne_top _
  unfold rowwise blocked
  rw [Ideal.ofBits_zero_f32, ofBits_rowScale, ofBits_rowCount, ofBits_totalScale,
    Ideal.div_coe (by norm_num : (4096 : ℝ) ≠ 0)]
  simp only [zero_add]
  rw [← sum_mul_const Finset.univ S h0 ht, mul_assoc, ← EReal.coe_mul, sum_rows_eq_sum_blocks S]
  norm_num

end Smape

end
-- ==== Proof.lean ====
/- The proof of `Cert.Claim` (proofs.«167430_j34471407517908_1_alg».proof.Defs).
   Both programs compute a scaled sum of the masked symmetric percentage ratio `|t - p| / (|p| + |t|)` (taken where
   `|p| + |t| ≥ 0.001`, zero elsewhere) over two 4096 × 8192 arrays. The reference sums each row, scales the row sum by
   200/8192 = 25/1024, adds the 4096 scaled sums and divides by 4096. The kernel walks 32 blocks of 128 rows, keeps one
   running sum of the blocks' totals, and scales it once at the end by 200/(8192·4096) = 25·2⁻²². Over the extended reals
   the two are equal for ALL inputs: a nonnegative finite factor distributes over every sum of extended reals, the zeros
   the sums start from are neutral, dividing by 4096 is multiplying by 1/4096, and the 4096 rows are the 32 blocks of 128
   (Proof/Algebra.lean, over Proof/Spec.lean's two groupings). Proof/RefRead.lean identifies the reference's result with
   the row-by-row grouping; Proof/Pieces.lean, Proof/Accum.lean, Proof/Payload.lean and Proof/KernelValue.lean identify
   the kernel's with the block-by-block one. The frames of the two kernel programs are the generated ones; the
   reference's is its generated run with the result dropped; the idealization rewrote nothing, so `preserves` is `True`.
   The precondition is never opened. -/
import proofs.«167430_j34471407517908_1_alg».proof.Defs
import proofs.«167430_j34471407517908_1_alg».proof.Proof.Gen.Kernel
import proofs.«167430_j34471407517908_1_alg».proof.Proof.Gen.Kernel.Frame
import proofs.«167430_j34471407517908_1_alg».proof.Proof.Gen.KernelIdeal
import proofs.«167430_j34471407517908_1_alg».proof.Proof.Gen.KernelIdeal.Frame
import proofs.«167430_j34471407517908_1_alg».proof.Proof.Gen.ReferenceIdeal
import proofs.«167430_j34471407517908_1_alg».proof.Proof.Gen.ReferenceIdeal.Run
import proofs.«167430_j34471407517908_1_alg».proof.Proof.Gen.Pre_finite_inputs
import proofs.«167430_j34471407517908_1_alg».proof.Proof.KernelValue
import proofs.«167430_j34471407517908_1_alg».proof.Proof.RefRead
import proofs.«167430_j34471407517908_1_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel ends at the block-by-block grouping of the row sums and the
    reference at the row-by-row one: the same extended real. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2,
    Smape.rowwise_eq_blocked]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
